-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S_ : Shape := ⟨0, ![]⟩

class Facts : Prop where
  bcast_S_S256x3072 : S_.BroadcastsInDim S256x3072 (![] : Fin 0 → Fin S256x3072.rank)
  reducesTo_S256x3072_S_d0_1 : S256x3072.ReducesTo [0, 1] S_
  h_S_ : 0 < S_.numel
  bcast_S_S3072x48 : S_.BroadcastsInDim S3072x48 (![] : Fin 0 → Fin S3072x48.rank)
  reducesTo_S3072x48_S_d0_1 : S3072x48.ReducesTo [0, 1] S_
  bcast_S_S32x3072 : S_.BroadcastsInDim S32x3072 (![] : Fin 0 → Fin S32x3072.rank)
  reducesTo_S32x3072_S_d0_1 : S32x3072.ReducesTo [0, 1] S_
  bcast_S_S3072x32 : S_.BroadcastsInDim S3072x32 (![] : Fin 0 → Fin S3072x32.rank)
  reducesTo_S3072x32_S_d0_1 : S3072x32.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg5 : FVec F S3072 .f32) (main_v13 : IVec S_ 1) (main_v16 : IVec S3072x32 1) : IVec S_ 1 :=
  let main_c_5 : IVec S_ 1 := constantI S_ 1 1#1
  let main_v17 : IVec S_ 1 := (fun x v => Host.reduce IntOp.andi x v reducesTo_S3072x32_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S256x3072 .f32) (main_arg1 : IVec S3072x3072 32) (main_arg2 : FVec F S3072x48 .f32) (main_arg3 : FVec F S32x3072 .f32) (main_arg4 : FVec F S3072x32 .f32) (main_arg5 : FVec F S3072 .f32) : IVec S_ 1 :=
  let main_v0 : FVec F S256x3072 .f32 := Host.absf main_arg0
  let main_cst : FVec F S_ .f32 := constant S_ .f32 0x7F800000#32
  let main_v1 : FVec F S256x3072 .f32 := broadcastInDim S256x3072 ![] bcast_S_S256x3072 main_cst
  let main_v2 : IVec S256x3072 1 := cmpf .olt main_v0 main_v1
  let main_c : IVec S_ 1 := constantI S_ 1 1#1
  let main_v3 : IVec S_ 1 := (fun x v => Host.reduce IntOp.andi x v reducesTo_S256x3072_S_d0_1 h_S_) main_v2 main_c
  let main_v4 : FVec F S3072x48 .f32 := Host.absf main_arg2
  let main_cst_0 : FVec F S_ .f32 := constant S_ .f32 0x7F800000#32
  let main_v5 : FVec F S3072x48 .f32 := broadcastInDim S3072x48 ![] bcast_S_S3072x48 main_cst_0
  let main_v6 : IVec S3072x48 1 := cmpf .olt main_v4 main_v5
  let main_c_1 : IVec S_ 1 := constantI S_ 1 1#1
  let main_v7 : IVec S_ 1 := (fun x v => Host.reduce IntOp.andi x v reducesTo_S3072x48_S_d0_1 h_S_) main_v6 main_c_1
  let main_v8 : IVec S_ 1 := andi main_v3 main_v7
  let main_v9 : FVec F S32x3072 .f32 := Host.absf main_arg3
  let main_cst_2 : FVec F S_ .f32 := constant S_ .f32 0x7F800000#32
  let main_v10 : FVec F S32x3072 .f32 := broadcastInDim S32x3072 ![] bcast_S_S32x3072 main_cst_2
  let main_v11 : IVec S32x3072 1 := cmpf .olt main_v9 main_v10
  let main_c_3 : IVec S_ 1 := constantI S_ 1 1#1
  let main_v12 : IVec S_ 1 := (fun x v => Host.reduce IntOp.andi x v reducesTo_S32x3072_S_d0_1 h_S_) main_v11 main_c_3
  let main_v13 : IVec S_ 1 := andi main_v8 main_v12
  let main_v14 : FVec F S3072x32 .f32 := Host.absf main_arg4
  let main_cst_4 : FVec F S_ .f32 := constant S_ .f32 0x7F800000#32
  let main_v15 : FVec F S3072x32 .f32 := broadcastInDim S3072x32 ![] bcast_S_S3072x32 main_cst_4
  let main_v16 : IVec S3072x32 1 := cmpf .olt main_v14 main_v15
  fn_part1 (F := F) main_arg5 main_v13 main_v16
-- ==== Kernel.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S256x48x64 : Shape := ⟨3, ![256, 48, 64]⟩
abbrev S_ : Shape := ⟨0, ![]⟩
abbrev S256x48 : Shape := ⟨2, ![256, 48]⟩
abbrev S256x48x1 : Shape := ⟨3, ![256, 48, 1]⟩
abbrev S48 : Shape := ⟨1, ![48]⟩
abbrev S48x1 : Shape := ⟨2, ![48, 1]⟩
abbrev S1x3072 : Shape := ⟨2, ![1, 3072]⟩
abbrev S48x3072 : Shape := ⟨2, ![48, 3072]⟩
abbrev S256x32 : Shape := ⟨2, ![256, 32]⟩
abbrev S512x3072 : Shape := ⟨2, ![512, 3072]⟩
abbrev S512x48 : Shape := ⟨2, ![512, 48]⟩
abbrev S512x32 : Shape := ⟨2, ![512, 32]⟩
abbrev S1x512 : Shape := ⟨2, ![1, 512]⟩
abbrev S256x512 : Shape := ⟨2, ![256, 512]⟩

abbrev nBuf : Space → Nat
  | .hbm => 63
  | .vmem => 13
  | .smem => 0
  | _ => 0

abbrev bufTy : (tb : Table) → Fin (tcTables nBuf tb) → BufTy
  | .hbm, ⟨0, _⟩ => ⟨S256x3072, .f32⟩
  | .hbm, ⟨1, _⟩ => ⟨S3072x3072, .i32⟩
  | .hbm, ⟨2, _⟩ => ⟨S3072x48, .f32⟩
  | .hbm, ⟨3, _⟩ => ⟨S32x3072, .f32⟩
  | .hbm, ⟨4, _⟩ => ⟨S3072x32, .f32⟩
  | .hbm, ⟨5, _⟩ => ⟨S3072, .f32⟩
  | .hbm, ⟨6, _⟩ => ⟨S256x48x64, .f32⟩
  | .hbm, ⟨7, _⟩ => ⟨S256x48x64, .f32⟩
  | .hbm, ⟨8, _⟩ => ⟨S_, .f32⟩
  | .hbm, ⟨9, _⟩ => ⟨S256x48, .f32⟩
  | .hbm, ⟨10, _⟩ => ⟨S256x48x1, .f32⟩
  | .hbm, ⟨11, _⟩ => ⟨S_, .f32⟩
  | .hbm, ⟨12, _⟩ => ⟨S256x48x1, .f32⟩
  | .hbm, ⟨13, _⟩ => ⟨S256x48x1, .f32⟩
  | .hbm, ⟨14, _⟩ => ⟨S_, .f32⟩
  | .hbm, ⟨15, _⟩ => ⟨S256x48x1, .f32⟩
  | .hbm, ⟨16, _⟩ => ⟨S256x48x1, .f32⟩
  | .hbm, ⟨17, _⟩ => ⟨S256x48x64, .f32⟩
  | .hbm, ⟨18, _⟩ => ⟨S256x48x64, .f32⟩
  | .hbm, ⟨19, _⟩ => ⟨S256x48x64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256x48x64, .f32⟩
  | .hbm, ⟨24, _⟩ => ⟨S256x48x64, .f32⟩
  | .hbm, ⟨25, _⟩ => ⟨S_, .f32⟩
  | .hbm, ⟨26, _⟩ => ⟨S256x48x64, .f32⟩
  | .hbm, ⟨27, _⟩ => ⟨S256x48x64, .f32⟩
  | .hbm, ⟨28, _⟩ => ⟨S256x48x64, .f32⟩
  | .hbm, ⟨29, _⟩ => ⟨S256x48x64, .f32⟩
  | .hbm, ⟨30, _⟩ => ⟨S256x3072, .f32⟩
  | .hbm, ⟨31, _⟩ => ⟨S256x3072, .bf16⟩
  | .hbm, ⟨32, _⟩ => ⟨S3072, .i32⟩
  | .hbm, ⟨33, _⟩ => ⟨S_, .i32⟩
  | .hbm, ⟨34, _⟩ => ⟨S_, .i32⟩
  | .hbm, ⟨35, _⟩ => ⟨S3072, .i32⟩
  | .hbm, ⟨36, _⟩ => ⟨S3072, .i32⟩
  | .hbm, ⟨37, _⟩ => ⟨S3072, .i32⟩
  | .hbm, ⟨38, _⟩ => ⟨S_, .i32⟩
  | .hbm, ⟨39, _⟩ => ⟨S3072, .i32⟩
  | .hbm, ⟨40, _⟩ => ⟨S3072, .i1⟩
  | .hbm, ⟨41, _⟩ => ⟨S3072, .i32⟩
  | .hbm, ⟨42, _⟩ => ⟨S3072, .i32⟩
  | .hbm, ⟨43, _⟩ => ⟨S_, .i32⟩
  | .hbm, ⟨44, _⟩ => ⟨S3072, .i32⟩
  | .hbm, ⟨45, _⟩ => ⟨S3072, .i1⟩
  | .hbm, ⟨46, _⟩ => ⟨S3072, .i1⟩
  | .hbm, ⟨47, _⟩ => ⟨S_, .i32⟩
  | .hbm, ⟨48, _⟩ => ⟨S3072, .i32⟩
  | .hbm, ⟨49, _⟩ => ⟨S3072, .i32⟩
  | .hbm, ⟨50, _⟩ => ⟨S3072, .i32⟩
  | .hbm, ⟨51, _⟩ => ⟨S48, .i32⟩
  | .hbm, ⟨52, _⟩ => ⟨S48x1, .i32⟩
  | .hbm, ⟨53, _⟩ => ⟨S1x3072, .i32⟩
  | .hbm, ⟨54, _⟩ => ⟨S48x3072, .i32⟩
  | .hbm, ⟨55, _⟩ => ⟨S48x3072, .i32⟩
  | .hbm, ⟨56, _⟩ => ⟨S48x3072, .i1⟩
  | .hbm, ⟨57, _⟩ => ⟨S48x3072, .bf16⟩
  | .hbm, ⟨58, _⟩ => ⟨S1x3072, .f32⟩
  | .hbm, ⟨59, _⟩ => ⟨S256x3072, .bf16⟩
  | .hbm, ⟨60, _⟩ => ⟨S32x3072, .bf16⟩
  | .hbm, ⟨61, _⟩ => ⟨S256x32, .f32⟩
  | .hbm, ⟨62, _⟩ => ⟨S256x3072, .f32⟩
  | .local _ .vmem, ⟨0, _⟩ => ⟨S256x3072, .bf16⟩
  | .local _ .vmem, ⟨1, _⟩ => ⟨S256x32, .f32⟩
  | .local _ .vmem, ⟨2, _⟩ => ⟨S48x3072, .bf16⟩
  | .local _ .vmem, ⟨3, _⟩ => ⟨S512x3072, .i32⟩
  | .local _ .vmem, ⟨4, _⟩ => ⟨S512x3072, .i32⟩
  | .local _ .vmem, ⟨5, _⟩ => ⟨S512x48, .f32⟩
  | .local _ .vmem, ⟨6, _⟩ => ⟨S512x48, .f32⟩
  | .local _ .vmem, ⟨7, _⟩ => ⟨S512x32, .f32⟩
  | .local _ .vmem, ⟨8, _⟩ => ⟨S512x32, .f32⟩
  | .local _ .vmem, ⟨9, _⟩ => ⟨S1x512, .f32⟩
  | .local _ .vmem, ⟨10, _⟩ => ⟨S1x512, .f32⟩
  | .local _ .vmem, ⟨11, _⟩ => ⟨S256x512, .f32⟩
  | .local _ .vmem, ⟨12, _⟩ => ⟨S256x512, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S48x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x3072_S256x48x64 : S256x3072.ShapeCasts S256x48x64
  reducesTo_S256x48x64_S256x48_d2 : S256x48x64.ReducesTo [2] S256x48
  h_S_ : 0 < S_.numel
  bcast_S256x48_S256x48x1_0_1 : S256x48.BroadcastsInDim S256x48x1 (![0, 1] : Fin 2 → Fin S256x48x1.rank)
  bcast_S_S256x48x1 : S_.BroadcastsInDim S256x48x1 (![] : Fin 0 → Fin S256x48x1.rank)
  bcast_S256x48x1_S256x48x64_0_1_2 : S256x48x1.BroadcastsInDim S256x48x64 (![0, 1, 2] : Fin 3 → Fin S256x48x64.rank)
  bcast_S_S256x48x64 : S_.BroadcastsInDim S256x48x64 (![] : Fin 0 → Fin S256x48x64.rank)
  shapeCasts_S256x48x64_S256x3072 : S256x48x64.ShapeCasts S256x3072
  bitsLt_bf16_f32 : FTy.bits .bf16 < FTy.bits .f32
  bcast_S_S3072 : S_.BroadcastsInDim S3072 (![] : Fin 0 → Fin S3072.rank)
  bcast_S48_S48x1_0 : S48.BroadcastsInDim S48x1 (![0] : Fin 1 → Fin S48x1.rank)
  bcast_S3072_S1x3072_1 : S3072.BroadcastsInDim S1x3072 (![1] : Fin 1 → Fin S1x3072.rank)
  bcast_S1x3072_S48x3072_0_1 : S1x3072.BroadcastsInDim S48x3072 (![0, 1] : Fin 2 → Fin S48x3072.rank)
  bcast_S48x1_S48x3072_0_1 : S48x1.BroadcastsInDim S48x3072 (![0, 1] : Fin 2 → Fin S48x3072.rank)
  shapeCasts_S3072_S1x3072 : S3072.ShapeCasts S1x3072
  inb_S512x3072_S512x3072_0_0 : ∀ a, (![0, 0] : Fin 2 → Nat) a + S512x3072.size a ≤ S512x3072.size a
  h_S512x3072 : 0 < S512x3072.numel
  inb_S512x48_S512x48_0_0 : ∀ a, (![0, 0] : Fin 2 → Nat) a + S512x48.size a ≤ S512x48.size a
  h_S512x48 : 0 < S512x48.numel
  inb_S48x3072_S48x3072_0_0 : ∀ a, (![0, 0] : Fin 2 → Nat) a + S48x3072.size a ≤ S48x3072.size a
  h_S48x3072 : 0 < S48x3072.numel
  shapeCasts_S48x3072_S48x3072 : S48x3072.ShapeCasts S48x3072
  inb_S256x3072_S256x3072_0_0 : ∀ a, (![0, 0] : Fin 2 → Nat) a + S256x3072.size a ≤ S256x3072.size a
  h_S256x3072 : 0 < S256x3072.numel
  shapeCasts_S256x3072_S256x3072 : S256x3072.ShapeCasts S256x3072
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S512x32_S512x32_0_0 : ∀ a, (![0, 0] : Fin 2 → Nat) a + S512x32.size a ≤ S512x32.size a
  h_S512x32 : 0 < S512x32.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x3072_S32x3072_S256x32_1_1_0_0_n_n_wf : DotDims.WF S256x3072 S32x3072 S256x32 [1] [1] [0] [0] [] []
  dot_S512x48_S48x3072_S512x3072_1_0_0_1_n_n_wf : DotDims.WF S512x48 S48x3072 S512x3072 [1] [0] [0] [1] [] []
  dot_S256x3072_S512x3072_S256x512_1_1_0_0_n_n_wf : DotDims.WF S256x3072 S512x3072 S256x512 [1] [1] [0] [0] [] []
  dot_S256x32_S512x32_S256x512_1_1_0_0_n_n_wf : DotDims.WF S256x32 S512x32 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x3072.size a ≤ S256x3072.size a
  hwx0_0 : ∀ i : grid0.Coords, EltTy.bits .bf16 = 32 ∨ (Rect.block (s := S256x3072) S256x3072.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x3072.size a ≤ S48x3072.size a
  hwx0_2 : ∀ i : grid0.Coords, EltTy.bits .bf16 = 32 ∨ (Rect.block (s := S48x3072) S48x3072.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S3072x3072.size a
  hwx0_3 : ∀ i : grid0.Coords, EltTy.bits .i32 = 32 ∨ (Rect.block (s := S3072x3072) S512x3072.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x48.size a ≤ S3072x48.size a
  hwx0_4 : ∀ i : grid0.Coords, EltTy.bits .f32 = 32 ∨ (Rect.block (s := S3072x48) S512x48.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x32.size a ≤ S3072x32.size a
  hwx0_5 : ∀ i : grid0.Coords, EltTy.bits .f32 = 32 ∨ (Rect.block (s := S3072x32) S512x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x3072.size a
  hwx0_6 : ∀ i : grid0.Coords, EltTy.bits .f32 = 32 ∨ (Rect.block (s := S1x3072) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x3072.size a
  hwx0_7 : ∀ i : grid0.Coords, EltTy.bits .f32 = 32 ∨ (Rect.block (s := S256x3072) S256x512.size (cc0_transform_7 i) (hinb0_7 i)).WholeWords (EltTy.packing .f32)

variable [Facts₀]

def dot_S256x3072_S32x3072_S256x32_1_1_0_0_n_n : DotDims S256x3072 S32x3072 S256x32 where
  lhsContracting := [1]
  rhsContracting := [1]
  lhsNonContracting := [0]
  rhsNonContracting := [0]
  lhsBatch := []
  rhsBatch := []
  wf := dot_S256x3072_S32x3072_S256x32_1_1_0_0_n_n_wf
def dot_S512x48_S48x3072_S512x3072_1_0_0_1_n_n : DotDims S512x48 S48x3072 S512x3072 where
  lhsContracting := [1]
  rhsContracting := [0]
  lhsNonContracting := [0]
  rhsNonContracting := [1]
  lhsBatch := []
  rhsBatch := []
  wf := dot_S512x48_S48x3072_S512x3072_1_0_0_1_n_n_wf
def dot_S256x3072_S512x3072_S256x512_1_1_0_0_n_n : DotDims S256x3072 S512x3072 S256x512 where
  lhsContracting := [1]
  rhsContracting := [1]
  lhsNonContracting := [0]
  rhsNonContracting := [0]
  lhsBatch := []
  rhsBatch := []
  wf := dot_S256x3072_S512x3072_S256x512_1_1_0_0_n_n_wf
def dot_S256x32_S512x32_S256x512_1_1_0_0_n_n : DotDims S256x32 S512x32 S256x512 where
  lhsContracting := [1]
  rhsContracting := [1]
  lhsNonContracting := [0]
  rhsNonContracting := [0]
  lhsBatch := []
  rhsBatch := []
  wf := dot_S256x32_S512x32_S256x512_1_1_0_0_n_n_wf

abbrev win0_0 : Pipeline.Window sig grid0 :=
  Pipeline.Window.ofSpec (Memref.whole main_v15) S256x3072.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v28) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S48x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x3072.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512x48.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x32.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S256x3072 : Shape := ⟨2, ![256, 3072]⟩
abbrev S3072x3072 : Shape := ⟨2, ![3072, 3072]⟩
abbrev S3072x48 : Shape := ⟨2, ![3072, 48]⟩
abbrev S32x3072 : Shape := ⟨2, ![32, 3072]⟩
abbrev S3072x32 : Shape := ⟨2, ![3072, 32]⟩
abbrev S3072 : Shape := ⟨1, ![3072]⟩
abbrev S_ : Shape := ⟨0, ![]⟩
abbrev S3072x48x64 : Shape := ⟨3, ![3072, 48, 64]⟩
abbrev S3072x48x1 : Shape := ⟨3, ![3072, 48, 1]⟩
abbrev S256x48x64 : Shape := ⟨3, ![256, 48, 64]⟩
abbrev S256x48 : Shape := ⟨2, ![256, 48]⟩
abbrev S256x48x1 : Shape := ⟨3, ![256, 48, 1]⟩
abbrev S256x32 : Shape := ⟨2, ![256, 32]⟩
abbrev S1x3072 : Shape := ⟨2, ![1, 3072]⟩

abbrev nBuf : Space → Nat
  | .hbm => 50
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S3072x3072, .i32⟩
  | .hbm, ⟨2, _⟩ => ⟨S3072x48, .f32⟩
  | .hbm, ⟨3, _⟩ => ⟨S32x3072, .f32⟩
  | .hbm, ⟨4, _⟩ => ⟨S3072x32, .f32⟩
  | .hbm, ⟨5, _⟩ => ⟨S3072, .f32⟩
  | .hbm, ⟨6, _⟩ => ⟨S3072x3072, .f32⟩
  | .hbm, ⟨7, _⟩ => ⟨S_, .f32⟩
  | .hbm, ⟨8, _⟩ => ⟨S3072x3072, .f32⟩
  | .hbm, ⟨9, _⟩ => ⟨S3072x3072, .f32⟩
  | .hbm, ⟨10, _⟩ => ⟨S3072x48x64, .f32⟩
  | .hbm, ⟨11, _⟩ => ⟨S3072x48x1, .f32⟩
  | .hbm, ⟨12, _⟩ => ⟨S3072x48x64, .f32⟩
  | .hbm, ⟨13, _⟩ => ⟨S3072x48x64, .f32⟩
  | .hbm, ⟨14, _⟩ => ⟨S3072x3072, .f32⟩
  | .hbm, ⟨15, _⟩ => ⟨S256x48x64, .f32⟩
  | .hbm, ⟨16, _⟩ => ⟨S256x48x64, .f32⟩
  | .hbm, ⟨17, _⟩ => ⟨S_, .f32⟩
  | .hbm, ⟨18, _⟩ => ⟨S256x48, .f32⟩
  | .hbm, ⟨19, _⟩ => ⟨S256x48x1, .f32⟩
  | .hbm, ⟨20, _⟩ => ⟨S_, .f32⟩
  | .hbm, ⟨21, _⟩ => ⟨S256x48x1, .f32⟩
  | .hbm, ⟨22, _⟩ => ⟨S256x48x1, .f32⟩
  | .hbm, ⟨23, _⟩ => ⟨S_, .f32⟩
  | .hbm, ⟨24, _⟩ => ⟨S256x48x1, .f32⟩
  | .hbm, ⟨25, _⟩ => ⟨S256x48x1, .f32⟩
  | .hbm, ⟨26, _⟩ => ⟨S256x48x64, .f32⟩
  | .hbm, ⟨27, _⟩ => ⟨S256x48x64, .f32⟩
  | .hbm, ⟨28, _⟩ => ⟨S256x48x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S256x48x64, .f32⟩
  | .hbm, ⟨33, _⟩ => ⟨S256x48x64, .f32⟩
  | .hbm, ⟨34, _⟩ => ⟨S_, .f32⟩
  | .hbm, ⟨35, _⟩ => ⟨S256x48x64, .f32⟩
  | .hbm, ⟨36, _⟩ => ⟨S256x48x64, .f32⟩
  | .hbm, ⟨37, _⟩ => ⟨S256x48x64, .f32⟩
  | .hbm, ⟨38, _⟩ => ⟨S256x48x64, .f32⟩
  | .hbm, ⟨39, _⟩ => ⟨S256x3072, .f32⟩
  | .hbm, ⟨40, _⟩ => ⟨S3072x3072, .f32⟩
  | .hbm, ⟨41, _⟩ => ⟨S256x3072, .f32⟩
  | .hbm, ⟨42, _⟩ => ⟨S3072x32, .f32⟩
  | .hbm, ⟨43, _⟩ => ⟨S256x32, .f32⟩
  | .hbm, ⟨44, _⟩ => ⟨S32x3072, .f32⟩
  | .hbm, ⟨45, _⟩ => ⟨S256x3072, .f32⟩
  | .hbm, ⟨46, _⟩ => ⟨S256x3072, .f32⟩
  | .hbm, ⟨47, _⟩ => ⟨S1x3072, .f32⟩
  | .hbm, ⟨48, _⟩ => ⟨S256x3072, .f32⟩
  | .hbm, ⟨49, _⟩ => ⟨S256x3072, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S3072x3072 : S_.BroadcastsInDim S3072x3072 (![] : Fin 0 → Fin S3072x3072.rank)
  shapeCasts_S3072x3072_S3072x48x64 : S3072x3072.ShapeCasts S3072x48x64
  bcast_S3072x48_S3072x48x1_0_1 : S3072x48.BroadcastsInDim S3072x48x1 (![0, 1] : Fin 2 → Fin S3072x48x1.rank)
  bcast_S3072x48x1_S3072x48x64_0_1_2 : S3072x48x1.BroadcastsInDim S3072x48x64 (![0, 1, 2] : Fin 3 → Fin S3072x48x64.rank)
  shapeCasts_S3072x48x64_S3072x3072 : S3072x48x64.ShapeCasts S3072x3072
  shapeCasts_S256x3072_S256x48x64 : S256x3072.ShapeCasts S256x48x64
  reducesTo_S256x48x64_S256x48_d2 : S256x48x64.ReducesTo [2] S256x48
  h_S_ : 0 < S_.numel
  bcast_S256x48_S256x48x1_0_1 : S256x48.BroadcastsInDim S256x48x1 (![0, 1] : Fin 2 → Fin S256x48x1.rank)
  bcast_S_S256x48x1 : S_.BroadcastsInDim S256x48x1 (![] : Fin 0 → Fin S256x48x1.rank)
  bcast_S256x48x1_S256x48x64_0_1_2 : S256x48x1.BroadcastsInDim S256x48x64 (![0, 1, 2] : Fin 3 → Fin S256x48x64.rank)
  bcast_S_S256x48x64 : S_.BroadcastsInDim S256x48x64 (![] : Fin 0 → Fin S256x48x64.rank)
  shapeCasts_S256x48x64_S256x3072 : S256x48x64.ShapeCasts S256x3072
  transposes_S3072x3072_S3072x3072_1_0 : S3072x3072.Transposes [1, 0] S3072x3072
  transposes_S32x3072_S3072x32_1_0 : S32x3072.Transposes [1, 0] S3072x32
  transposes_S3072x32_S32x3072_1_0 : S3072x32.Transposes [1, 0] S32x3072
  bcast_S3072_S1x3072_1 : S3072.BroadcastsInDim S1x3072 (![1] : Fin 1 → Fin S1x3072.rank)
  bcast_S1x3072_S256x3072_0_1 : S1x3072.BroadcastsInDim S256x3072 (![0, 1] : Fin 2 → Fin S256x3072.rank)
  dot_S256x3072_S3072x3072_S256x3072_1_0_0_1_n_n_wf : DotDims.WF S256x3072 S3072x3072 S256x3072 [1] [0] [0] [1] [] []
  dot_S256x3072_S3072x32_S256x32_1_0_0_1_n_n_wf : DotDims.WF S256x3072 S3072x32 S256x32 [1] [0] [0] [1] [] []
  dot_S256x32_S32x3072_S256x3072_1_0_0_1_n_n_wf : DotDims.WF S256x32 S32x3072 S256x3072 [1] [0] [0] [1] [] []

variable [Facts₀]

def dot_S256x3072_S3072x3072_S256x3072_1_0_0_1_n_n : DotDims S256x3072 S3072x3072 S256x3072 where
  lhsContracting := [1]
  rhsContracting := [0]
  lhsNonContracting := [0]
  rhsNonContracting := [1]
  lhsBatch := []
  rhsBatch := []
  wf := dot_S256x3072_S3072x3072_S256x3072_1_0_0_1_n_n_wf
def dot_S256x3072_S3072x32_S256x32_1_0_0_1_n_n : DotDims S256x3072 S3072x32 S256x32 where
  lhsContracting := [1]
  rhsContracting := [0]
  lhsNonContracting := [0]
  rhsNonContracting := [1]
  lhsBatch := []
  rhsBatch := []
  wf := dot_S256x3072_S3072x32_S256x32_1_0_0_1_n_n_wf
def dot_S256x32_S32x3072_S256x3072_1_0_0_1_n_n : DotDims S256x32 S32x3072 S256x3072 where
  lhsContracting := [1]
  rhsContracting := [0]
  lhsNonContracting := [0]
  rhsNonContracting := [1]
  lhsBatch := []
  rhsBatch := []
  wf := dot_S256x32_S32x3072_S256x3072_1_0_0_1_n_n_wf

class Facts : Prop extends Facts₀ where

variable [Facts]
-- ==== Proof.Words.lean ====
/-
  The two spellings of the number eight that the programs subtract from a weight code — the bf16 pattern 0x4100
  and the f32 pattern 0x41000000 — denote the real 8; and the sum that spreads one scale per group of columns:
  a row of scales against a 0/1 column that is 1 at exactly one group is the scale of that group.
-/
import Idealize.ShloMosaic.PureOps.Ideal
import Mathlib

noncomputable section

namespace Cert.Words

open Idealize.ShloMosaic

/-- The bf16 pattern of 8.0 denotes 8. -/
theorem eight_bf16 : Ideal.ofBits .bf16 0x4100#16 = ((8 : ℝ) : EReal) := by
  simp [Ideal.ofBits, Ideal.ieee, -EReal.coe_mul]; norm_num

/-- The f32 pattern of 8.0 denotes 8. -/
theorem eight_f32 : Ideal.ofBits .f32 0x41000000#32 = ((8 : ℝ) : EReal) := by
  simp [Ideal.ofBits, Ideal.ieee, -EReal.coe_mul]; norm_num

/-- A sum of products against an indicator column keeps the one term the indicator selects: on the extended reals
    `a · 0 = 0` and `a · 1 = a` for every `a`, infinite or not. -/
theorem sum_mul_indicator {n : ℕ} (a : Fin n → EReal) (e : Fin n → EReal) (g₀ : Fin n)
    (h1 : e g₀ = 1) (h0 : ∀ g, g ≠ g₀ → e g = 0) : ∑ g : Fin n, a g * e g = a g₀ := by
  rw [Finset.sum_eq_single g₀ (fun g _ hg => by rw [h0 g hg, mul_zero]) (fun h => absurd (Finset.mem_univ _) h), h1, mul_one]

end Cert.Words

end
-- ==== Proof.Layer.lean ====
/-
  The layer as one function of whole arrays, index by index, on the extended reals.

  A weight entry is the integer code read signed, less eight, times the scale of its column: the scale of a column
  is spelt as the row of group scales against a column of a 48×3072 array `e` (the group-expansion array), so
  that the same function describes a block of weight rows and the whole weight table. An output entry (t, n) is

      ∑ₖ xq[t,k] · weight[n,k]   +   ∑ᵣ mid[t,r] · up[n,r]   +   bias[0,n].

  `out_congr`: the entries of a block of weight rows, scale rows, up-projection rows and bias columns are the
  entries of the whole at the shifted column.
-/
import Idealize.ShloMosaic.PureOps.Ideal
import Idealize.ShloMosaic.Lib.ValueIdx
import proofs.«103757_j52261162058321_2_alg».proof.Proof.Words

noncomputable section

namespace Cert.Layer

open Idealize.ShloMosaic Idealize.ShloMosaic.ValueIdx

/-- The dequantised weight at row `n`, column `k`: (code − 8) times the column's scale, the latter the row of group
    scales against column `k` of the expansion array. -/
def weight {N : ℕ} (e : (⟨2, ![48, 3072]⟩ : Shape).Idx → EReal) (qw : (⟨2, ![N, 3072]⟩ : Shape).Idx → BitVec 32)
    (ws : (⟨2, ![N, 48]⟩ : Shape).Idx → EReal) (n : Fin N) (k : Fin 3072) : EReal :=
  ((((qw (ix2 n k)).toInt : ℝ) : EReal) - ((8 : ℝ) : EReal)) * ∑ g : Fin 48, ws (ix2 n g) * e (ix2 g k)

/-- The layer's output for `T` activation rows and `N` weight rows. -/
def out {T N : ℕ} (xq : (⟨2, ![T, 3072]⟩ : Shape).Idx → EReal) (mid : (⟨2, ![T, 32]⟩ : Shape).Idx → EReal)
    (e : (⟨2, ![48, 3072]⟩ : Shape).Idx → EReal) (qw : (⟨2, ![N, 3072]⟩ : Shape).Idx → BitVec 32)
    (ws : (⟨2, ![N, 48]⟩ : Shape).Idx → EReal) (up : (⟨2, ![N, 32]⟩ : Shape).Idx → EReal)
    (bias : (⟨2, ![1, N]⟩ : Shape).Idx → EReal) : (⟨2, ![T, N]⟩ : Shape).Idx → EReal :=
  fun j => (∑ k : Fin 3072, xq (ix2 (j 0) k) * weight e qw ws (j 1) k)
    + (∑ r : Fin 32, mid (ix2 (j 0) r) * up (ix2 (j 1) r)) + bias (ix2 0 (j 1))

/-- Rows of the weight-side arrays and columns of the bias give the same output entries: if row `q` of the block
    arrays is row `n` of the whole arrays, entry (p, q) of the block's output is entry (p, n) of the whole. -/
theorem out_congr {T N N' : ℕ} (xq : (⟨2, ![T, 3072]⟩ : Shape).Idx → EReal) (mid : (⟨2, ![T, 32]⟩ : Shape).Idx → EReal)
    (e : (⟨2, ![48, 3072]⟩ : Shape).Idx → EReal)
    (qw : (⟨2, ![N, 3072]⟩ : Shape).Idx → BitVec 32) (ws : (⟨2, ![N, 48]⟩ : Shape).Idx → EReal)
    (up : (⟨2, ![N, 32]⟩ : Shape).Idx → EReal) (bias : (⟨2, ![1, N]⟩ : Shape).Idx → EReal)
    (qw' : (⟨2, ![N', 3072]⟩ : Shape).Idx → BitVec 32) (ws' : (⟨2, ![N', 48]⟩ : Shape).Idx → EReal)
    (up' : (⟨2, ![N', 32]⟩ : Shape).Idx → EReal) (bias' : (⟨2, ![1, N']⟩ : Shape).Idx → EReal)
    (p : Fin T) (q : Fin N') (n : Fin N)
    (hqw : ∀ k, qw' (ix2 q k) = qw (ix2 n k)) (hws : ∀ g, ws' (ix2 q g) = ws (ix2 n g))
    (hup : ∀ r, up' (ix2 q r) = up (ix2 n r)) (hb : bias' (ix2 0 q) = bias (ix2 0 n)) :
    out xq mid e qw' ws' up' bias' (ix2 p q) = out xq mid e qw ws up bias (ix2 p n) := by
  unfold out weight
  show (∑ k : Fin 3072, xq (ix2 p k) * (((((qw' (ix2 q k)).toInt : ℝ) : EReal) - ((8 : ℝ) : EReal)) * ∑ g : Fin 48, ws' (ix2 q g) * e (ix2 g k)))
      + (∑ r : Fin 32, mid (ix2 p r) * up' (ix2 q r)) + bias' (ix2 0 q)
    = (∑ k : Fin 3072, xq (ix2 p k) * (((((qw (ix2 n k)).toInt : ℝ) : EReal) - ((8 : ℝ) : EReal)) * ∑ g : Fin 48, ws (ix2 n g) * e (ix2 g k)))
      + (∑ r : Fin 32, mid (ix2 p r) * up (ix2 n r)) + bias (ix2 0 n)
  simp only [hqw, hws, hup, hb]

/-- The group a column belongs to: 64 consecutive columns share a scale. -/
def colGroup (k : Fin 3072) : Fin 48 := ⟨k.val / 64, by have := k.isLt; omega⟩

/-- The layer written directly over the arguments: the weight's scale read at the column's group, the down-projection
    spelt out, the bias a vector. Entry (t, n) is

        ∑ₖ xq[t,k] · ((code[n,k] − 8) · scale[n, k/64])  +  ∑ᵣ (∑ₖ x[t,k] · down[r,k]) · up[n,r]  +  bias[n]. -/
def direct {T N : ℕ} (xq x : (⟨2, ![T, 3072]⟩ : Shape).Idx → EReal)
    (qw : (⟨2, ![N, 3072]⟩ : Shape).Idx → BitVec 32) (ws : (⟨2, ![N, 48]⟩ : Shape).Idx → EReal)
    (down : (⟨2, ![32, 3072]⟩ : Shape).Idx → EReal) (up : (⟨2, ![N, 32]⟩ : Shape).Idx → EReal)
    (bias : (⟨1, ![N]⟩ : Shape).Idx → EReal) : (⟨2, ![T, N]⟩ : Shape).Idx → EReal :=
  fun j => (∑ k : Fin 3072, xq (ix2 (j 0) k)
        * (((((qw (ix2 (j 1) k)).toInt : ℝ) : EReal) - ((8 : ℝ) : EReal)) * ws (ix2 (j 1) (colGroup k))))
    + (∑ r : Fin 32, (∑ k : Fin 3072, x (ix2 (j 0) k) * down (ix2 r k)) * up (ix2 (j 1) r)) + bias (ix1 (j 1))

/-- The two forms agree when the expansion array is the indicator of "column k is in group g", the middle array is
    the down-projection of the activations, and the bias row is the bias vector. Only `a · 0 = 0` and `a · 1 = a` are
    used of the extended reals: no entry need be finite. -/
theorem out_eq_direct {T N : ℕ} (xq x : (⟨2, ![T, 3072]⟩ : Shape).Idx → EReal) (mid : (⟨2, ![T, 32]⟩ : Shape).Idx → EReal)
    (e : (⟨2, ![48, 3072]⟩ : Shape).Idx → EReal) (qw : (⟨2, ![N, 3072]⟩ : Shape).Idx → BitVec 32)
    (ws : (⟨2, ![N, 48]⟩ : Shape).Idx → EReal) (down : (⟨2, ![32, 3072]⟩ : Shape).Idx → EReal)
    (up : (⟨2, ![N, 32]⟩ : Shape).Idx → EReal) (row : (⟨2, ![1, N]⟩ : Shape).Idx → EReal)
    (bias : (⟨1, ![N]⟩ : Shape).Idx → EReal)
    (hmid : ∀ (p : Fin T) (r : Fin 32), mid (ix2 p r) = ∑ k : Fin 3072, x (ix2 p k) * down (ix2 r k))
    (he1 : ∀ k : Fin 3072, e (ix2 (colGroup k) k) = 1)
    (he0 : ∀ (g : Fin 48) (k : Fin 3072), g ≠ colGroup k → e (ix2 g k) = 0)
    (hrow : ∀ n : Fin N, row (ix2 0 n) = bias (ix1 n)) :
    out xq mid e qw ws up row = direct xq x qw ws down up bias := by
  funext j
  obtain ⟨p, n, rfl⟩ : ∃ (p : Fin T) (n : Fin N), j = ix2 p n := ⟨j 0, j 1, eq_ix2 j⟩
  have hs : ∀ k : Fin 3072, ∑ g : Fin 48, ws (ix2 n g) * e (ix2 g k) = ws (ix2 n (colGroup k)) := fun k =>
    Cert.Words.sum_mul_indicator (fun g => ws (ix2 n g)) (fun g => e (ix2 g k)) (colGroup k) (he1 k) (fun g hg => he0 g k hg)
  show (∑ k : Fin 3072, xq (ix2 p k) * (((((qw (ix2 n k)).toInt : ℝ) : EReal) - ((8 : ℝ) : EReal)) * ∑ g : Fin 48, ws (ix2 n g) * e (ix2 g k)))
      + (∑ r : Fin 32, mid (ix2 p r) * up (ix2 n r)) + row (ix2 0 n)
    = (∑ k : Fin 3072, xq (ix2 p k) * (((((qw (ix2 n k)).toInt : ℝ) : EReal) - ((8 : ℝ) : EReal)) * ws (ix2 n (colGroup k))))
      + (∑ r : Fin 32, (∑ k : Fin 3072, x (ix2 p k) * down (ix2 r k)) * up (ix2 n r)) + bias (ix1 n)
  simp only [hs, hmid, hrow]

end Cert.Layer

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Body.lean ====
/-
  What one grid point computes, as the layer function of its blocks.

  The body loads a block of 512 weight rows (integer codes), the 512 rows of group scales and of the up-projection
  that go with them, the 512 bias entries, and the three arrays every point shares (the quantised activations, the
  down-projected activations, the group-expansion array). Its value is: the codes read as numbers less eight, times
  the scales spread over the columns by a product with the expansion array; the activations against those weights,
  contracted over the 3072 columns; the down-projected activations against the up-projection rows, contracted over
  the rank 32; the sum of the two, plus the bias row repeated down the 256 rows. Changes of float format are the
  identity on the extended reals and a product into a zero accumulator is the plain sum of products, so the value
  is `Layer.out` of the blocks.
-/
import proofs.«103757_j52261162058321_2_alg».proof.Proof.Gen.KernelIdeal.Skeleton
import proofs.«103757_j52261162058321_2_alg».proof.Proof.Gen.KernelIdeal
import proofs.«103757_j52261162058321_2_alg».proof.Proof.Layer
import proofs.«103757_j52261162058321_2_alg».proof.Proof.Words
import proofs.«103757_j52261162058321_2_alg».proof.Proof.LibRowsDot
import proofs.«103757_j52261162058321_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The bias row repeated down the rows: entry (p, q) of the broadcast is entry (0, q) of the row. -/
theorem bias_rows (b : FVec Ideal S1x512 .f32) (p : Fin 256) (q : Fin 512) :
    broadcastTo S256x512 b broadcasts_S1x512_S256x512 (ix2 p q) = b (ix2 0 q) :=
  broadcastTo_apply b broadcasts_S1x512_S256x512 (ix2 p q) (ix2 0 q) (fun a => by
    match a with
    | ⟨0, _⟩ => rfl
    | ⟨1, _⟩ => rfl)

/-- The body's stored value is the layer function of the loaded blocks. -/
theorem payload_eq (v0 : Vec Ideal S512x3072 .i32) (v2 : Vec Ideal S512x48 .f32) (v4 : Vec Ideal S48x3072 .bf16)
    (v11 : Vec Ideal S256x3072 .bf16) (v14 : Vec Ideal S256x32 .f32) (v17 : Vec Ideal S512x32 .f32)
    (v20 : Vec Ideal S1x512 .f32) :
    k0_pay1 (F := Ideal) v0 v2 v4 v11 v14 v17 v20 = Cert.Layer.out v11 v14 v4 v0 v2 v17 v20 := by
  funext j
  obtain ⟨p, q, rfl⟩ : ∃ (p : Fin 256) (q : Fin 512), j = ix2 p q := ⟨j 0, j 1, eq_ix2 j⟩
  unfold k0_pay1
  rw [shapeCast_self, shapeCast_self, shapeCast_self, shapeCast_self]
  rw [addf_apply, addf_apply, bias_rows]
  simp only [matmul]
  rw [Cert.RowsDot.matmul_zero_at_of_eq dot_S256x3072_S512x3072_S256x512_1_1_0_0_n_n rfl,
    Cert.RowsDot.matmul_zero_at_of_eq dot_S256x32_S512x32_S256x512_1_1_0_0_n_n rfl]
  rw [Cert.Lib.PlainDot.matmul_zero_eq dot_S512x48_S48x3072_S512x3072_1_0_0_1_n_n rfl]
  unfold Cert.Layer.out Cert.Layer.weight
  simp only [mulf_apply, subf_apply, truncf_apply, sitofp_apply, broadcast_apply, Cert.Lib.PlainDot.rowsByCols_apply]
  rw [show Scalar.ofBits (F := Ideal) .bf16 0x4100#16 = ((8 : ℝ) : EReal) from Cert.Words.eight_bf16]
  rfl

end Cert.KernelIdeal.Body

end
-- ==== Proof.Blocks.lean ====
/-
  From the grid's six points to the whole output array.

  Point t of the grid works on weight rows 512·t … 512·t + 511: it is handed those rows of the codes, of the group
  scales and of the up-projection, bias entries 512·t … 512·t + 511, and — the same at every point — the whole
  quantised activations, the whole down-projected activations and the whole expansion array; it writes columns
  512·t … 512·t + 511 of the output. Since the layer function's entry (p, n) reads only row n of the weight-side
  arrays, what point t writes is the block of the layer function of the WHOLE arrays, and the six blocks tile the
  3072 output columns: the output array ends as the layer function of the arrays the region was entered with.
-/
import proofs.«103757_j52261162058321_2_alg».proof.Proof.Gen.KernelIdeal.Value
import proofs.«103757_j52261162058321_2_alg».proof.Proof.Body
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer function of the arrays as the region finds them. -/
def whole (c : Dev nD) : S256x3072.Idx → EReal :=
  Cert.Layer.out (V m c main_v15 : S256x3072.Idx → EReal) (V m c main_v28 : S256x32.Idx → EReal)
    (V m c main_v24 : S48x3072.Idx → EReal) (V m c main_arg1 : S3072x3072.Idx → BitVec 32)
    (V m c main_arg2 : S3072x48.Idx → EReal) (V m c main_arg4 : S3072x32.Idx → EReal)
    (V m c main_v25 : S1x3072.Idx → EReal)

/-- The block indices of every window at every grid point: the three shared windows sit at block (0, 0), the three
    weight-side windows at block row t, the bias and the output at block column t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

theorem t_lt (t : Fin cfg0.N) : t.val < 6 := by have := t.isLt; have h : cfg0.N = 6 := N_0; omega

/-- The weight row that row `q` of point `t`'s blocks is. -/
def rowAt (t : Fin cfg0.N) (q : Fin 512) : Fin 3072 := ⟨512 * t.val + q.val, by have := t_lt t; have := q.isLt; omega⟩

/-- The quantised activations' block is the whole array, at every point. -/
theorem shared0 (c : Dev nD) (t : Fin cfg0.N) : (iblk m c 0 t : S256x3072.Idx → EReal) = (V m c main_v15 : S256x3072.Idx → EReal) := by
  obtain ⟨e0, e1, -⟩ := idx_facts t
  funext y
  unfold iblk
  rw [View.read_apply]
  show V m c main_v15 _ = V m c main_v15 _
  congr 1
  funext a
  apply Fin.ext
  match a with
  | ⟨0, _⟩ => show win0_0.index t (0 : Fin 2) * 256 + 1 * (y 0).val = (y 0).val; rw [e0]; omega
  | ⟨1, _⟩ => show win0_0.index t (1 : Fin 2) * 3072 + 1 * (y 1).val = (y 1).val; rw [e1]; omega

/-- The down-projected activations' block is the whole array. -/
theorem shared1 (c : Dev nD) (t : Fin cfg0.N) : (iblk m c 1 t : S256x32.Idx → EReal) = (V m c main_v28 : S256x32.Idx → EReal) := by
  obtain ⟨-, -, e0, e1, -⟩ := idx_facts t
  funext y
  unfold iblk
  rw [View.read_apply]
  show V m c main_v28 _ = V m c main_v28 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 32 + 1 * (y 1).val = (y 1).val; rw [e1]; omega

/-- The expansion array's block is the whole array. -/
theorem shared2 (c : Dev nD) (t : Fin cfg0.N) : (iblk m c 2 t : S48x3072.Idx → EReal) = (V m c main_v24 : S48x3072.Idx → EReal) := by
  obtain ⟨-, -, -, -, e0, e1, -⟩ := idx_facts t
  funext y
  unfold iblk
  rw [View.read_apply]
  show V m c main_v24 _ = V m c main_v24 _
  congr 1
  funext a
  apply Fin.ext
  match a with
  | ⟨0, _⟩ => show win0_2.index t (0 : Fin 2) * 48 + 1 * (y 0).val = (y 0).val; rw [e0]; omega
  | ⟨1, _⟩ => show win0_2.index t (1 : Fin 2) * 3072 + 1 * (y 1).val = (y 1).val; rw [e1]; omega

/-- Row q of the codes' block at point t is row 512·t + q of the codes. -/
theorem codes_row (c : Dev nD) (t : Fin cfg0.N) (q : Fin 512) (k : Fin 3072) :
    (iblk m c 3 t : S512x3072.Idx → BitVec 32) (ix2 q k) = (V m c main_arg1 : S3072x3072.Idx → BitVec 32) (ix2 (rowAt t q) k) := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_3.index t (0 : Fin 2) * 512 + 1 * q.val = 512 * t.val + q.val; rw [e0]; omega
  | ⟨1, _⟩ => show win0_3.index t (1 : Fin 2) * 3072 + 1 * k.val = k.val; rw [e1]; omega

/-- Row q of the scales' block at point t is row 512·t + q of the scales. -/
theorem scales_row (c : Dev nD) (t : Fin cfg0.N) (q : Fin 512) (g : Fin 48) :
    (iblk m c 4 t : S512x48.Idx → EReal) (ix2 q g) = (V m c main_arg2 : S3072x48.Idx → EReal) (ix2 (rowAt t q) g) := by
  obtain ⟨-, -, -, -, -, -, -, -, e0, e1, -⟩ := idx_facts t
  unfold iblk
  rw [View.read_apply]
  show V m c main_arg2 _ = V m c main_arg2 _
  congr 1
  funext a
  apply Fin.ext
  match a with
  | ⟨0, _⟩ => show win0_4.index t (0 : Fin 2) * 512 + 1 * q.val = 512 * t.val + q.val; rw [e0]; omega
  | ⟨1, _⟩ => show win0_4.index t (1 : Fin 2) * 48 + 1 * g.val = g.val; rw [e1]; omega

/-- Row q of the up-projection's block at point t is row 512·t + q of the up-projection. -/
theorem up_row (c : Dev nD) (t : Fin cfg0.N) (q : Fin 512) (r : Fin 32) :
    (iblk m c 5 t : S512x32.Idx → EReal) (ix2 q r) = (V m c main_arg4 : S3072x32.Idx → EReal) (ix2 (rowAt t q) r) := by
  obtain ⟨-, -, -, -, -, -, -, -, -, -, e0, e1, -⟩ := idx_facts t
  unfold iblk
  rw [View.read_apply]
  show V m c main_arg4 _ = V m c main_arg4 _
  congr 1
  funext a
  apply Fin.ext
  match a with
  | ⟨0, _⟩ => show win0_5.index t (0 : Fin 2) * 512 + 1 * q.val = 512 * t.val + q.val; rw [e0]; omega
  | ⟨1, _⟩ => show win0_5.index t (1 : Fin 2) * 32 + 1 * r.val = r.val; rw [e1]; omega

/-- Entry q of the bias block at point t is entry 512·t + q of the bias row. -/
theorem bias_col (c : Dev nD) (t : Fin cfg0.N) (q : Fin 512) :
    (iblk m c 6 t : S1x512.Idx → EReal) (ix2 0 q) = (V m c main_v25 : S1x3072.Idx → EReal) (ix2 0 (rowAt t q)) := by
  obtain ⟨-, -, -, -, -, -, -, -, -, -, -, -, e0, e1, -⟩ := idx_facts t
  unfold iblk
  rw [View.read_apply]
  show V m c main_v25 _ = V m c main_v25 _
  congr 1
  funext a
  apply Fin.ext
  match a with
  | ⟨0, _⟩ => show win0_6.index t (0 : Fin 2) * 1 + 1 * 0 = 0; rw [e0]
  | ⟨1, _⟩ => show win0_6.index t (1 : Fin 2) * 512 + 1 * q.val = 512 * t.val + q.val; rw [e1]; omega

/-- What point t computes at (p, q) is the layer function of the whole arrays at (p, 512·t + q). -/
theorem point_eq (c : Dev nD) (t : Fin cfg0.N) (p : Fin 256) (q : Fin 512) :
    Cert.Layer.out (iblk m c 0 t : S256x3072.Idx → EReal) (iblk m c 1 t : S256x32.Idx → EReal)
        (iblk m c 2 t : S48x3072.Idx → EReal) (iblk m c 3 t : S512x3072.Idx → BitVec 32)
        (iblk m c 4 t : S512x48.Idx → EReal) (iblk m c 5 t : S512x32.Idx → EReal)
        (iblk m c 6 t : S1x512.Idx → EReal) (ix2 p q)
      = whole m c (ix2 p (rowAt t q)) := by
  rw [shared0 m c t, shared1 m c t, shared2 m c t]
  exact Cert.Layer.out_congr (V m c main_v15 : S256x3072.Idx → EReal) (V m c main_v28 : S256x32.Idx → EReal)
    (V m c main_v24 : S48x3072.Idx → EReal) (V m c main_arg1 : S3072x3072.Idx → BitVec 32)
    (V m c main_arg2 : S3072x48.Idx → EReal) (V m c main_arg4 : S3072x32.Idx → EReal)
    (V m c main_v25 : S1x3072.Idx → EReal)
    (iblk m c 3 t : S512x3072.Idx → BitVec 32) (iblk m c 4 t : S512x48.Idx → EReal)
    (iblk m c 5 t : S512x32.Idx → EReal) (iblk m c 6 t : S1x512.Idx → EReal) p q (rowAt t q)
    (codes_row m c t q) (scales_row m c t q) (up_row m c t q) (bias_col m c t q)

/-- What point t writes back is block t of the layer function of the whole arrays. -/
theorem flushed_eq (c : Dev nD) (t : Fin cfg0.N) :
    (dats m 0 c).flushed 7 t = ((cfg0.win 7).blk t).view.read (Elt Ideal) (whole m c) := by
  rw [flushed7]
  unfold out0_7
  rw [View.canon_unit_zero hz]
  simp only [View.ld_unit_zero (S := S512x3072) hz, View.ld_unit_zero (S := S512x48) hz, View.ld_unit_zero (S := S48x3072) hz,
    View.ld_unit_zero (S := S256x3072) hz, View.ld_unit_zero (S := S256x32) hz, View.ld_unit_zero (S := S512x32) hz,
    View.ld_unit_zero (S := S1x512) hz]
  obtain ⟨-, -, -, -, -, -, -, -, -, -, -, -, -, -, e0, e1⟩ := idx_facts t
  have key : ∀ (p : Fin 256) (q : Fin 512),
      k0_pay1 (F := Ideal) (iblk m c 3 t) (iblk m c 4 t) (iblk m c 2 t) (iblk m c 0 t) (iblk m c 1 t) (iblk m c 5 t) (iblk m c 6 t) (ix2 p q)
        = whole m c (((cfg0.win 7).blk t).view.emb (ix2 p q)) := by
    intro p q
    have hj : ((cfg0.win 7).blk t).view.emb (ix2 p q) = ix2 p (rowAt t q) := by
      funext a
      apply Fin.ext
      match a with
      | ⟨0, _⟩ => show win0_7.index t (0 : Fin 2) * 256 + 1 * p.val = p.val; rw [e0]; omega
      | ⟨1, _⟩ => show win0_7.index t (1 : Fin 2) * 512 + 1 * q.val = 512 * t.val + q.val; rw [e1]; omega
    exact ((congrFun (Cert.KernelIdeal.Body.payload_eq (iblk m c 3 t) (iblk m c 4 t) (iblk m c 2 t) (iblk m c 0 t) (iblk m c 1 t) (iblk m c 5 t) (iblk m c 6 t)) (ix2 p q)).trans
      (point_eq m c t p q)).trans (congrArg (whole m c) hj.symm)
  funext j
  obtain ⟨p, q, rfl⟩ : ∃ (p : Fin 256) (q : Fin 512), j = ix2 p q := ⟨j 0, j 1, eq_ix2 j⟩
  exact key p q

/-- An index of the output array is in point t's block iff each coordinate is in the block's range on its axis. -/
theorem mem_blk (t : Fin cfg0.N) (i : S256x3072.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v29).slice (win0_7.rect t)).set ↔ _
  rw [View.set_slice_whole, Rect.mem_set_unit]
  exact Iff.rfl

/-- Every output index is in the block of the point its column belongs to. -/
theorem cover (i : S256x3072.Idx) : ∃ t : Fin cfg0.N, (cfg0.win 7).flush t = true ∧ i ∈ ((cfg0.win 7).blk t).view.set := by
  have hi0 : (i 0).val < 256 := (i 0).isLt
  have hi1 : (i 1).val < 3072 := (i 1).isLt
  have hN : cfg0.N = 6 := N_0
  let t : Fin cfg0.N := ⟨(i 1).val / 512, by omega⟩
  obtain ⟨-, -, -, -, -, -, -, -, -, -, -, -, -, -, e0, e1⟩ := idx_facts t
  refine ⟨t, flush0_7 t, ?_⟩
  rw [mem_blk]
  intro a
  have ht : t.val = (i 1).val / 512 := rfl
  match a with
  | ⟨0, _⟩ => show win0_7.index t (0 : Fin 2) * 256 ≤ (i 0).val ∧ (i 0).val < win0_7.index t (0 : Fin 2) * 256 + 256; rw [e0]; omega
  | ⟨1, _⟩ => show win0_7.index t (1 : Fin 2) * 512 ≤ (i 1).val ∧ (i 1).val < win0_7.index t (1 : Fin 2) * 512 + 512; rw [e1]; omega

/-- The output array after the run is the layer function of the arrays the region was entered with. -/
theorem final (c : Dev nD) : (dats m 0 c).arrAt 7 cfg0.N = whole m c :=
  (dats m 0 c).arrAt_eq_of_cover 7 (whole m c) (fun t _ => flushed_eq m c t) cover

/-- The run, read: the result array at the layer function, the arguments unchanged. -/
theorem run : θ_run defs (onTc (τ := τ) (main (F := Ideal))) ⟨m, fun _ => 0, ρ⟩ fun r => ∀ c : Dev nD,
      r.2.mem ((c : Thread nD τ).loc main_v29) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Blocks

end
-- ==== Proof.Expand.lean ====
/-
  The group-expansion array: entry (g, k) is 1 when column k belongs to group g (k / 64 = g) and 0 otherwise.

  The program builds it from two index ramps: the column ramp 0 … 3072 floor-divided by 64 — spelt as the truncating
  quotient, less one where the operands' signs differ and the remainder is not zero — compared for equality with the
  group ramp 0 … 47, the truth value converted to a float. For a column index below 3072 the floor division is the
  natural quotient (the 3072 cases are evaluated), two words of small naturals are equal exactly when the naturals
  are, and the conversion of a truth value is 0 or 1.
-/
import proofs.«103757_j52261162058321_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Expand

open Cert.KernelIdeal Cert.KernelIdeal.Facts₀ Idealize.ShloMosaic Idealize.ShloMosaic.ValueIdx

/-- The sign of a word: 0, −1 or 1. -/
def sgn (x : BitVec 32) : BitVec 32 := if x = 0 then 0 else if x.msb then -1 else 1

/-- The floor division of a word by 64 as the program spells it. -/
def floorDiv64 (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- Below 3072 it is the natural quotient (evaluated at each of the 3072 column indices). -/
theorem floorDiv64_ofNat : ∀ k : Fin 3072, floorDiv64 (BitVec.ofNat 32 k.val) = BitVec.ofNat 32 (k.val / 64) := by
  decide +kernel

/-- The column ramp floor-divided by 64, as a vector. -/
def groupOfCol : IVec S3072 32 :=
  select
    (andi
      (cmpi .ne (signi (iotaInDim S3072 32 0))
        (broadcastInDim S3072 ![] bcast_S_S3072 (signi (id (constantI S_ 32 64#32)))))
      (cmpi .ne
        (Host.remsi (iotaInDim S3072 32 0) (broadcastInDim S3072 ![] bcast_S_S3072 (id (constantI S_ 32 64#32))))
        (broadcastInDim S3072 ![] bcast_S_S3072 (constantI S_ 32 0#32))))
    (subi
      (Host.divsi (iotaInDim S3072 32 0) (broadcastInDim S3072 ![] bcast_S_S3072 (id (constantI S_ 32 64#32))))
      (broadcastInDim S3072 ![] bcast_S_S3072 (constantI S_ 32 1#32)))
    (Host.divsi (iotaInDim S3072 32 0) (broadcastInDim S3072 ![] bcast_S_S3072 (id (constantI S_ 32 64#32))))

/-- The expansion array as the program computes it. -/
def expand : FVec Ideal S48x3072 .bf16 :=
  uitofp .bf16
    (cmpi .eq
      (broadcastInDim S48x3072 ![0, 1] bcast_S1x3072_S48x3072_0_1 (broadcastInDim S1x3072 ![1] bcast_S3072_S1x3072_1 groupOfCol))
      (broadcastInDim S48x3072 ![0, 1] bcast_S48x1_S48x3072_0_1 (broadcastInDim S48x1 ![0] bcast_S48_S48x1_0 (iotaInDim S48 32 0))))

/-- The floor-divided ramp at column k is the word of k / 64. -/
theorem groupOfCol_apply (k : Fin 3072) : groupOfCol (ix1 k) = BitVec.ofNat 32 (k.val / 64) :=
  floorDiv64_ofNat k

/-- Entry (g, k): the truth value of "the word of k / 64 is the word of g", as a number. -/
theorem expand_apply (g : Fin 48) (k : Fin 3072) :
    expand (ix2 g k) = (((IntOp.cmpi .eq (BitVec.ofNat 32 (k.val / 64)) (BitVec.ofNat 32 g.val)).toNat : ℝ) : EReal) := by
  have hl : (broadcastInDim S48x3072 ![0, 1] bcast_S1x3072_S48x3072_0_1 (broadcastInDim S1x3072 ![1] bcast_S3072_S1x3072_1 groupOfCol)) (ix2 g k)
      = groupOfCol (ix1 k) := by
    rw [broadcastInDim_apply _ bcast_S1x3072_S48x3072_0_1 _ (ix2 g k) (ix2 0 k) (fun a => by
      match a with
      | ⟨0, _⟩ => rfl
      | ⟨1, _⟩ => rfl)]
    exact broadcastInDim_apply _ bcast_S3072_S1x3072_1 groupOfCol (ix2 0 k) (ix1 k) (fun a => by
      match a with
      | ⟨0, _⟩ => rfl)
  have hr : (broadcastInDim S48x3072 ![0, 1] bcast_S48x1_S48x3072_0_1 (broadcastInDim S48x1 ![0] bcast_S48_S48x1_0 (iotaInDim S48 32 0))) (ix2 g k)
      = BitVec.ofNat 32 g.val := by
    rw [broadcastInDim_apply _ bcast_S48x1_S48x3072_0_1 _ (ix2 g k) (ix2 g 0) (fun a => by
      match a with
      | ⟨0, _⟩ => rfl
      | ⟨1, _⟩ => rfl)]
    exact broadcastInDim_apply _ bcast_S48_S48x1_0 (iotaInDim S48 32 0) (ix2 g 0) (ix1 g) (fun a => by
      match a with
      | ⟨0, _⟩ => rfl)
  show (((IntOp.cmpi .eq (_ : BitVec 32) _).toNat : ℝ) : EReal) = _
  rw [hl, hr, groupOfCol_apply]

/-- Entry (g, k) is 1 on the column's own group … -/
theorem expand_own (k : Fin 3072) : expand (ix2 (⟨k.val / 64, by have := k.isLt; omega⟩ : Fin 48) k) = 1 := by
  rw [expand_apply]
  simp [IntOp.cmpi]

/-- … and 0 on every other group. -/
theorem expand_other (g : Fin 48) (k : Fin 3072) (h : g ≠ (⟨k.val / 64, by have := k.isLt; omega⟩ : Fin 48)) :
    expand (ix2 g k) = 0 := by
  rw [expand_apply]
  have hne : ¬ (BitVec.ofNat 32 (k.val / 64) = BitVec.ofNat 32 g.val) := by
    intro he
    apply h
    apply Fin.ext
    have h1 : k.val / 64 < 2 ^ 32 := by have := k.isLt; omega
    have h2 : g.val < 2 ^ 32 := by have := g.isLt; omega
    have := congrArg BitVec.toNat he
    simp only [BitVec.toNat_ofNat, Nat.mod_eq_of_lt h1, Nat.mod_eq_of_lt h2] at this
    exact this.symm
  simp [IntOp.cmpi, hne]

end Cert.KernelIdeal.Expand

end
-- ==== Proof.LibRowsDotHost.lean ====
/-
  The host's product of rows: a `dot_general` whose dimension numbers contract the second axis of both operands
  (⟨[1], [1], [0], [0]⟩, `DotDims.transposedRhs M K N` or any record equal to it), read at the output index (a, b) at
  the exact instance, is the sum over k < K of l[a, k] · r[b, k] — whatever the precision attribute and the schedule.
  The companion of the matrix unit's form in LibRowsDot.
-/
import proofs.«103757_j52261162058321_2_alg».proof.Proof.LibRowsDot

noncomputable section

namespace Cert.RowsDot

open Idealize.ShloMosaic Idealize.ShloMosaic.ValueIdx

/-- The host's `dot_general` with the rows-by-rows dimension numbers, at (a, b): ∑ₖ l[a,k] · r[b,k]. -/
theorem dotGeneral_at {M K N : Nat} {φ₁ φ₂ : FTy} (prec : Option ContractPrecision) (sched : HostSchedule)
    (l : FVec Ideal ⟨2, ![M, K]⟩ φ₁) (r : FVec Ideal ⟨2, ![N, K]⟩ φ₂) (a : Fin M) (b : Fin N) :
    FloatOps.dotGeneral (DotDims.transposedRhs M K N) prec sched l r (ix2 a b) = ∑ k : Fin K, l (ix2 a k) * r (ix2 b k) :=
  (Ideal.dotGeneral_apply _ prec sched l r (ix2 a b)).trans (sum_at l r a b)

/-- The same for any dimension record that is that one. -/
theorem dotGeneral_at_of_eq {M K N : Nat} {φ₁ φ₂ : FTy} (D : DotDims ⟨2, ![M, K]⟩ ⟨2, ![N, K]⟩ ⟨2, ![M, N]⟩)
    (hD : D = DotDims.transposedRhs M K N) (prec : Option ContractPrecision) (sched : HostSchedule)
    (l : FVec Ideal ⟨2, ![M, K]⟩ φ₁) (r : FVec Ideal ⟨2, ![N, K]⟩ φ₂) (a : Fin M) (b : Fin N) :
    FloatOps.dotGeneral D prec sched l r (ix2 a b) = ∑ k : Fin K, l (ix2 a k) * r (ix2 b k) := by
  subst hD
  exact dotGeneral_at prec sched l r a b

end Cert.RowsDot

end
-- ==== Proof.Entry.lean ====
/-
  What the region finds in the four arrays the program computes before the launch.

  * The quantised activations: reshape into groups of 64, the group's largest magnitude over 7 (at least 1e-8) as the
    step, round to the nearest step, clamp to [−8, 7] steps, multiply back, reshape. The reference program performs the
    same operations on the same argument, so the array is the reference's quantisation stage of the activations (the
    change of float format that follows is the identity on the extended reals).
  * The down-projected activations: entry (p, r) is ∑ₖ x[p,k] · down[r,k].
  * The expansion array: the indicator of "column k is in group g" (Expand).
  * The bias row: entry (0, n) is bias[n].
-/
import proofs.«103757_j52261162058321_2_alg».proof.Proof.Gen.KernelIdeal.Frame
import proofs.«103757_j52261162058321_2_alg».proof.Proof.Gen.ReferenceIdeal.Read
import proofs.«103757_j52261162058321_2_alg».proof.Proof.Expand
import proofs.«103757_j52261162058321_2_alg».proof.Proof.LibRowsDotHost
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The six argument arrays of core `c`, as functions on their index types. -/
abbrev acts (c : Dev nD) : S256x3072.Idx → EReal := m ((c : Thread nD τ).loc main_arg0)
abbrev codes (c : Dev nD) : S3072x3072.Idx → BitVec 32 := m ((c : Thread nD τ).loc main_arg1)
abbrev scales (c : Dev nD) : S3072x48.Idx → EReal := m ((c : Thread nD τ).loc main_arg2)
abbrev down (c : Dev nD) : S32x3072.Idx → EReal := m ((c : Thread nD τ).loc main_arg3)
abbrev up (c : Dev nD) : S3072x32.Idx → EReal := m ((c : Thread nD τ).loc main_arg4)
abbrev bias (c : Dev nD) : S3072.Idx → EReal := m ((c : Thread nD τ).loc main_arg5)

set_option maxHeartbeats 4000000 in
/-- The quantised activations as the region finds them are the reference's quantisation stage of the activations. -/
theorem acts_eq (c : Dev nD) : (V m c main_v15 : S256x3072.Idx → EReal)
    = Cert.ReferenceIdeal.Read.val_main_v22 (F := Ideal) (acts m c) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 4000000 in
/-- The down-projected activations as the region finds them: the host's product of the activations' rows by the
    down-projection's rows. -/
theorem mid_eq (c : Dev nD) : (V m c main_v28 : S256x32.Idx → EReal)
    = Host.dotGeneral (F := Ideal) dot_S256x3072_S32x3072_S256x32_1_1_0_0_n_n none
        (truncf .bf16 (acts m c : FVec Ideal S256x3072 .f32) bitsLt_bf16_f32)
        (truncf .bf16 (down m c : FVec Ideal S32x3072 .f32) bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-- Entry (p, r) of the down-projected activations is ∑ₖ x[p,k] · down[r,k]. -/
theorem mid_apply (c : Dev nD) (p : Fin 256) (r : Fin 32) :
    (V m c main_v28 : S256x32.Idx → EReal) (ix2 p r)
      = ∑ k : Fin 3072, acts m c (ix2 p k) * down m c (ix2 r k) := by
  rw [mid_eq]
  simp only [Host.dotGeneral]
  exact Cert.RowsDot.dotGeneral_at_of_eq dot_S256x3072_S32x3072_S256x32_1_1_0_0_n_n rfl none _
    (truncf .bf16 (acts m c : FVec Ideal S256x3072 .f32) bitsLt_bf16_f32)
    (truncf .bf16 (down m c : FVec Ideal S32x3072 .f32) bitsLt_bf16_f32) p r

set_option maxHeartbeats 4000000 in
/-- The expansion array as the region finds it. -/
theorem expand_eq (c : Dev nD) : (V m c main_v24 : S48x3072.Idx → EReal) = Cert.KernelIdeal.Expand.expand := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 4000000 in
/-- The bias row as the region finds it: the bias vector recast to one row. -/
theorem biasrow_eq (c : Dev nD) : (V m c main_v25 : S1x3072.Idx → EReal)
    = shapeCast S1x3072 (bias m c) shapeCasts_S3072_S1x3072 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- Entry (0, n) of the bias row is entry n of the bias vector. -/
theorem biasrow_apply (c : Dev nD) (n : Fin 3072) :
    (V m c main_v25 : S1x3072.Idx → EReal) (ix2 0 n) = bias m c (ix1 n) := by
  rw [biasrow_eq]
  exact shapeCast_apply _ shapeCasts_S3072_S1x3072 (ix2 0 n) (ix1 n) (by
    rw [Shape.rowMajor_val_one, Shape.rowMajor_val_two]
    show n.val = 0 * 3072 + n.val
    omega)

end Cert.KernelIdeal.Entry

end
-- ==== Proof.Join.lean ====
/-
  The kernel's result array as the layer written directly over the arguments.

  The output array ends as the layer function of the arrays the region was entered with (Blocks). Of those, the codes,
  the group scales and the up-projection are arguments; the quantised activations are the reference's quantisation
  stage of the activations, the middle array is the down-projection of the activations, the expansion array is the
  indicator of a column's group and the bias row is the bias vector (Entry). With the indicator the row of group scales
  against a column of the expansion array is the scale of that column's group, so the layer function is the direct
  form (Layer.out_eq_direct).
-/
import proofs.«103757_j52261162058321_2_alg».proof.Proof.Blocks
import proofs.«103757_j52261162058321_2_alg».proof.Proof.Entry
import proofs.«103757_j52261162058321_2_alg».proof.Proof.Layer

noncomputable section

namespace Cert.KernelIdeal.Join

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The layer over core `c`'s arguments. -/
def result (c : Dev nD) : S256x3072.Idx → EReal :=
  Cert.Layer.direct (T := 256) (N := 3072) (Cert.ReferenceIdeal.Read.val_main_v22 (F := Ideal) (Entry.acts m c))
    (Entry.acts m c) (Entry.codes m c) (Entry.scales m c) (Entry.down m c) (Entry.up m c) (Entry.bias m c)

/-- The layer function of the arrays the region finds is the layer over the arguments. -/
theorem whole_eq (c : Dev nD) : Blocks.whole m c = result m c := by
  unfold Blocks.whole result
  rw [V_main_arg1, V_main_arg2, V_main_arg4, Entry.acts_eq, Entry.expand_eq]
  exact Cert.Layer.out_eq_direct (T := 256) (N := 3072) _ (Entry.acts m c) (V m c main_v28 : S256x32.Idx → EReal)
    Cert.KernelIdeal.Expand.expand (Entry.codes m c) (Entry.scales m c) (Entry.down m c) (Entry.up m c)
    (V m c main_v25 : S1x3072.Idx → EReal) (Entry.bias m c)
    (Entry.mid_apply m c) Cert.KernelIdeal.Expand.expand_own Cert.KernelIdeal.Expand.expand_other (Entry.biasrow_apply m c)

/-- The kernel's run, read: the result array at the layer over the arguments, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (whole_eq m c), (h c).2⟩) (Blocks.run m ρ)

end Cert.KernelIdeal.Join

end
-- ==== Proof.RefSide.lean ====
/-
  The reference program's result, read entry by entry, is the layer written directly over the arguments.

  The reference dequantises the whole weight table — codes converted to numbers, less eight, regrouped as
  [3072, 48, 64], times the group scales repeated along the last axis, regrouped back —, transposes it, and contracts
  the quantised activations against it; transposes the two low-rank factors and contracts the activations through
  them; adds the two and the bias repeated down the rows. Read at (t, n): the regrouping sends (n, k) to
  (n, k / 64, k % 64) and back, so the weight entry is (code[n,k] − 8) · scale[n, k/64]; the transposes swap the
  coordinates the contractions then read.
-/
import proofs.«103757_j52261162058321_2_alg».proof.Proof.Gen.ReferenceIdeal.Read
import proofs.«103757_j52261162058321_2_alg».proof.Proof.Layer
import proofs.«103757_j52261162058321_2_alg».proof.Proof.Words
import Idealize.ShloMosaic.Lib.ValueIdx
import Idealize.ShloMosaic.PureOps.Ideal.Laws

noncomputable section

namespace Cert.ReferenceIdeal.Bridge

open Cert.ReferenceIdeal Cert.ReferenceIdeal.Read Idealize.ShloMosaic Idealize.ShloMosaic.ValueIdx

/-- The transposed dequantised weight at (k, n): (code[n,k] − 8) · scale[n, k/64]. -/
theorem weight_apply (x1 : (⟨S3072x3072, .i32⟩ : BufTy).Contents (Elt Ideal)) (x2 : (⟨S3072x48, .f32⟩ : BufTy).Contents (Elt Ideal))
    (n k : Fin 3072) :
    val_main_v23 (F := Ideal) x1 x2 (ix2 k n)
      = ((((x1 (ix2 n k)).toInt : ℝ) : EReal) - ((8 : ℝ) : EReal)) * x2 (ix2 n (Cert.Layer.colGroup k)) := by
  have hn : n.val < 3072 := n.isLt
  have hk : k.val < 3072 := k.isLt
  rw [val_main_v23_apply, val_main_v7_apply, val_main_v6_apply, val_main_v3_apply, val_main_v2_apply, val_main_v0_apply,
    val_main_v1_apply, val_main_cst_apply, val_main_v5_apply, val_main_v4_apply]
  have i1 : idx_main_v3 (idx_main_v7 (idx_main_v23 (ix2 k n))) = ix2 n k := funext fun a => Fin.ext (by
    match a with
    | ⟨0, _⟩ =>
      show (((n.val * 3072 + k.val) / 3072 * 48 + (n.val * 3072 + k.val) / 64 % 48) * 64 + (n.val * 3072 + k.val) % 64) / 3072 = n.val
      omega
    | ⟨1, _⟩ =>
      show (((n.val * 3072 + k.val) / 3072 * 48 + (n.val * 3072 + k.val) / 64 % 48) * 64 + (n.val * 3072 + k.val) % 64) % 3072 = k.val
      omega)
  have i2 : idx_main_v4 (idx_main_v5 (idx_main_v7 (idx_main_v23 (ix2 k n)))) = ix2 n (Cert.Layer.colGroup k) := funext fun a => Fin.ext (by
    match a with
    | ⟨0, _⟩ => show (n.val * 3072 + k.val) / 3072 = n.val; omega
    | ⟨1, _⟩ => show (n.val * 3072 + k.val) / 64 % 48 = k.val / 64; omega)
  rw [i1, i2]
  simp only [Ideal.mulf_def, Ideal.subf_def, Ideal.ofBits_def, Cert.Words.eight_f32]
  rfl

/-- The down-projected activations at (p, r): ∑ₖ x[p,k] · down[r,k]. -/
theorem mid_apply (x0 : (⟨S256x3072, .f32⟩ : BufTy).Contents (Elt Ideal)) (x3 : (⟨S32x3072, .f32⟩ : BufTy).Contents (Elt Ideal))
    (p : Fin 256) (r : Fin 32) :
    val_main_v26 (F := Ideal) x0 x3 (ix2 p r) = ∑ k : Fin 3072, x0 (ix2 p k) * x3 (ix2 r k) := by
  rw [val_main_v26_apply]
  refine Finset.sum_congr rfl fun k _ => ?_
  rw [val_main_v25_apply]
  have i1 : lidx_main_v26 (ix2 p r) k = ix2 p k := funext fun a => Fin.ext (by
    match a with
    | ⟨0, _⟩ => rfl
    | ⟨1, _⟩ => rfl)
  have i2 : idx_main_v25 (ridx_main_v26 (ix2 p r) k) = ix2 r k := funext fun a => Fin.ext (by
    match a with
    | ⟨0, _⟩ => rfl
    | ⟨1, _⟩ => rfl)
  rw [i1, i2]

/-- The reference's result is the layer written directly over the arguments, the quantised activations its own
    quantisation stage. -/
theorem result_eq (x0 : (⟨S256x3072, .f32⟩ : BufTy).Contents (Elt Ideal)) (x1 : (⟨S3072x3072, .i32⟩ : BufTy).Contents (Elt Ideal))
    (x2 : (⟨S3072x48, .f32⟩ : BufTy).Contents (Elt Ideal)) (x3 : (⟨S32x3072, .f32⟩ : BufTy).Contents (Elt Ideal))
    (x4 : (⟨S3072x32, .f32⟩ : BufTy).Contents (Elt Ideal)) (x5 : (⟨S3072, .f32⟩ : BufTy).Contents (Elt Ideal)) :
    val_main_v32 (F := Ideal) x0 x1 x2 x3 x4 x5
      = Cert.Layer.direct (T := 256) (N := 3072) (val_main_v22 (F := Ideal) x0) x0 x1 x2 x3 x4 x5 := by
  funext j
  obtain ⟨p, n, rfl⟩ : ∃ (p : Fin 256) (n : Fin 3072), j = ix2 p n := ⟨j 0, j 1, eq_ix2 j⟩
  rw [val_main_v32_apply, val_main_v29_apply, val_main_v24_apply, val_main_v28_apply, val_main_v31_apply, val_main_v30_apply]
  unfold Cert.Layer.direct
  simp only [Ideal.addf_def]
  have h1 : ∀ k : Fin 3072,
      val_main_v22 (F := Ideal) x0 (lidx_main_v24 (ix2 p n) k) * val_main_v23 (F := Ideal) x1 x2 (ridx_main_v24 (ix2 p n) k)
        = val_main_v22 (F := Ideal) x0 (ix2 p k)
          * (((((x1 (ix2 n k)).toInt : ℝ) : EReal) - ((8 : ℝ) : EReal)) * x2 (ix2 n (Cert.Layer.colGroup k))) := fun k => by
    have i1 : lidx_main_v24 (ix2 p n) k = ix2 p k := funext fun a => Fin.ext (by
      match a with
      | ⟨0, _⟩ => rfl
      | ⟨1, _⟩ => rfl)
    have i2 : ridx_main_v24 (ix2 p n) k = ix2 k n := funext fun a => Fin.ext (by
      match a with
      | ⟨0, _⟩ => rfl
      | ⟨1, _⟩ => rfl)
    rw [i1, i2, weight_apply]
  have h2 : ∀ r : Fin 32,
      val_main_v26 (F := Ideal) x0 x3 (lidx_main_v28 (ix2 p n) r) * val_main_v27 (F := Ideal) x4 (ridx_main_v28 (ix2 p n) r)
        = (∑ k : Fin 3072, x0 (ix2 p k) * x3 (ix2 r k)) * x4 (ix2 n r) := fun r => by
    have i1 : lidx_main_v28 (ix2 p n) r = ix2 p r := funext fun a => Fin.ext (by
      match a with
      | ⟨0, _⟩ => rfl
      | ⟨1, _⟩ => rfl)
    have i2 : idx_main_v27 (ridx_main_v28 (ix2 p n) r) = ix2 n r := funext fun a => Fin.ext (by
      match a with
      | ⟨0, _⟩ => rfl
      | ⟨1, _⟩ => rfl)
    rw [val_main_v27_apply, i1, i2, mid_apply]
  have h3 : idx_main_v30 (idx_main_v31 (ix2 p n)) = ix1 n := funext fun a => Fin.ext (by
    match a with
    | ⟨0, _⟩ => rfl)
  rw [h3]
  exact congrArg₂ (· + ·) (congrArg₂ (· + ·) (Finset.sum_congr rfl fun k _ => h1 k) (Finset.sum_congr rfl fun r _ => h2 r)) rfl

end Cert.ReferenceIdeal.Bridge

end
-- ==== Proof.lean ====
/-
  A 4-bit weight / 4-bit activation linear layer with a low-rank correction, tiled over 512 output columns at a time,
  against the same layer written with whole-array operations; equal on the extended reals.

  Both programs compute, for activations x [256, 3072], integer weight codes [3072, 3072], one scale per weight row
  and group of 64 columns [3072, 48], low-rank factors down [32, 3072] and up [3072, 32], and a bias [3072]:

      y[t,n] = ∑ₖ Q(x)[t,k] · ((code[n,k] − 8) · scale[n, k/64])  +  ∑ᵣ (∑ₖ x[t,k] · down[r,k]) · up[n,r]  +  bias[n],

  where Q quantises the activations per row and group of 64 (the same operations in both programs). They differ in
  how the scale reaches its 64 columns: the reference regroups the weight table as [3072, 48, 64] and multiplies by the
  scales repeated along the last axis; the tiled program multiplies the 512 × 48 block of scales by a 48 × 3072 array
  of zeros and ones that is 1 exactly where column k lies in group g. A row of scales against such a column keeps
  the one scale of the column's group (a · 0 = 0 and a · 1 = a hold for every extended real, so nothing need be
  finite), and the two programs then sum the same products. The tiled program's six grid points each write 512
  columns of the result from the matching 512 rows of the weight-side arrays; the blocks tile the array.

  Modules: Words (the constant 8, the indicator sum), Layer (the layer as a function, tiled and direct forms, the law
  between them), LibRowsDot / LibRowsDotHost / LibPlainDot (matrix products read at an index), Body (one grid point's
  value), Blocks (from the six points to the array), Expand (the 0/1 array), Entry (the arrays computed before the
  launch), Join (the kernel's run), RefSide (the reference's result read at an index).
-/
import proofs.«103757_j52261162058321_2_alg».proof.Defs
import proofs.«103757_j52261162058321_2_alg».proof.Proof.Gen.Kernel
import proofs.«103757_j52261162058321_2_alg».proof.Proof.Gen.Kernel.Skeleton
import proofs.«103757_j52261162058321_2_alg».proof.Proof.Gen.Kernel.Launch
import proofs.«103757_j52261162058321_2_alg».proof.Proof.Gen.Kernel.Points
import proofs.«103757_j52261162058321_2_alg».proof.Proof.Gen.Kernel.Frame
import proofs.«103757_j52261162058321_2_alg».proof.Proof.Gen.KernelIdeal
import proofs.«103757_j52261162058321_2_alg».proof.Proof.Gen.KernelIdeal.Skeleton
import proofs.«103757_j52261162058321_2_alg».proof.Proof.Gen.KernelIdeal.Launch
import proofs.«103757_j52261162058321_2_alg».proof.Proof.Gen.KernelIdeal.Points
import proofs.«103757_j52261162058321_2_alg».proof.Proof.Gen.KernelIdeal.Frame
import proofs.«103757_j52261162058321_2_alg».proof.Proof.Gen.ReferenceIdeal
import proofs.«103757_j52261162058321_2_alg».proof.Proof.Gen.Pre_finite_inputs
import proofs.«103757_j52261162058321_2_alg».proof.Proof.Gen.KernelIdeal.Value
import proofs.«103757_j52261162058321_2_alg».proof.Proof.Gen.ReferenceIdeal.Run
import proofs.«103757_j52261162058321_2_alg».proof.Proof.Gen.ReferenceIdeal.Read
import proofs.«103757_j52261162058321_2_alg».proof.Proof.Join
import proofs.«103757_j52261162058321_2_alg».proof.Proof.RefSide
import Idealize.ShloMosaic.Adequacy
import Idealize.ShloMosaic.Init

noncomputable section

namespace Cert.Proof

open Idealize.ShloMosaic Idealize.ShloMosaic.TcCoe Idealize.SL.Sem

/-- The tiled program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a sequence of whole-array operations: it runs, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- On the extended reals the tiled program's result array and the reference's are the layer over the arguments. -/
theorem algebraic : Cert.algebraic_KernelIdeal_ReferenceIdeal := by
  intro m ρ m' ρ' _ hagree
  refine ⟨fun c => Cert.KernelIdeal.Join.result m c, Cert.KernelIdeal.Join.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v32_eq, Cert.ReferenceIdeal.Bridge.result_eq, e0, e1, e2, e3, e4, e5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
